-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x1x4096 : S_.BroadcastsInDim S8x1x4096 (![] : Fin 0 → Fin S8x1x4096.rank)
  reducesTo_S8x1x4096_S_d0_1_2 : S8x1x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1x1024 : S_.BroadcastsInDim S8x1x1024 (![] : Fin 0 → Fin S8x1x1024.rank)
  reducesTo_S8x1x1024_S_d0_1_2 : S8x1x1024.ReducesTo [0, 1, 2] S_

variable [Facts]

def fn_part1 {F : FTy → Type} [FloatOps F] (main_arg4 : FVec F S8x1x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1x1024 .f32 := Host.absf main_arg4
  let main_cst_6 : FVec F S_ .f32 := constant S_ .f32 0x7F800000#32
  let main_v20 : FVec F S8x1x1024 .f32 := broadcastInDim S8x1x1024 ![] bcast_S_S8x1x1024 main_cst_6
  let main_v21 : IVec S8x1x1024 1 := cmpf .olt main_v19 main_v20
  let main_c_7 : IVec S_ 1 := constantI S_ 1 1#1
  let main_v22 : IVec S_ 1 := (fun x v => Host.reduce IntOp.andi x v reducesTo_S8x1x1024_S_d0_1_2 h_S_) main_v21 main_c_7
  let main_v23 : IVec S_ 1 := andi main_v18 main_v22
  main_v23

def fn {F : FTy → Type} [FloatOps F] (main_arg0 : FVec F S8x2048x1024 .f32) (main_arg1 : FVec F S8x1024x4096 .f32) (main_arg2 : FVec F S8x1x4096 .f32) (main_arg3 : FVec F S8x4096x1024 .f32) (main_arg4 : FVec F S8x1x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1x4096 .f32 := Host.absf main_arg2
  let main_cst_2 : FVec F S_ .f32 := constant S_ .f32 0x7F800000#32
  let main_v10 : FVec F S8x1x4096 .f32 := broadcastInDim S8x1x4096 ![] bcast_S_S8x1x4096 main_cst_2
  let main_v11 : IVec S8x1x4096 1 := cmpf .olt main_v9 main_v10
  let main_c_3 : IVec S_ 1 := constantI S_ 1 1#1
  let main_v12 : IVec S_ 1 := (fun x v => Host.reduce IntOp.andi x v reducesTo_S8x1x4096_S_d0_1_2 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_v13 main_v16
-- ==== Kernel.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S1x1024x1024 : Shape := ⟨3, ![1, 1024, 1024]⟩
abbrev S1x1024x512 : Shape := ⟨3, ![1, 1024, 512]⟩
abbrev S1x1x512 : Shape := ⟨3, ![1, 1, 512]⟩
abbrev S1x512x1024 : Shape := ⟨3, ![1, 512, 1024]⟩
abbrev S1x1x1024 : Shape := ⟨3, ![1, 1, 1024]⟩
abbrev S1024x1024 : Shape := ⟨2, ![1024, 1024]⟩
abbrev S1024x512 : Shape := ⟨2, ![1024, 512]⟩
abbrev S1x512 : Shape := ⟨2, ![1, 512]⟩
abbrev S512x1024 : Shape := ⟨2, ![512, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x1x4096, .f32⟩
  | .hbm, ⟨3, _⟩ => ⟨S8x4096x1024, .f32⟩
  | .hbm, ⟨4, _⟩ => ⟨S8x1x1024, .f32⟩
  | .hbm, ⟨5, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1x512, .f32⟩
  | .local _ .vmem, ⟨5, _⟩ => ⟨S1x1x512, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .f32 = 32 ∨ (Rect.block (s := S8x1024x4096) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .f32 = 32 ∨ (Rect.block (s := S8x4096x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x2048x1024.size a
  hwx0_5 : ∀ i : grid0.Coords, EltTy.bits .f32 = 32 ∨ (Rect.block (s := S8x2048x1024) S1x1024x1024.size (cc0_transform_5 i) (hinb0_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S8x2048x4096 : Shape := ⟨3, ![8, 2048, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x1x4096, .f32⟩
  | .hbm, ⟨3, _⟩ => ⟨S8x4096x1024, .f32⟩
  | .hbm, ⟨4, _⟩ => ⟨S8x1x1024, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S8x1x1024_S8x2048x1024_0_1_2 : S8x1x1024.BroadcastsInDim S8x2048x1024 (![0, 1, 2] : Fin 3 → Fin S8x2048x1024.rank)
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.Cases.lean ====
/-
  What the kernel body leaves behind, case by case, as the stored values of Payload.lean.

  The body runs in one of three ways, by the position `h` of the grid point along the hidden-tile axis:
    first tile (h = 0)      : the output block is reset to zero, the token block is copied into the scratch buffer,
                              then the accumulation step runs on the zero block and the fresh scratch;
    a middle tile (0 < h < 7): the accumulation step runs on the block and scratch the point before left;
    last tile (h = 7)       : the accumulation step, then the final step adding the second bias.
  Every store covers its whole buffer, so what a buffer holds afterwards is the value of the last store into it, and
  a load after a store reads that store's value.
-/
import proofs.«110776_j13855564497414_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First tile, the output block: the accumulation step on the zero block and the copied token block. -/
theorem out_A (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1024x1024 .bf16) (harg9 : arg9.IsWhole) (hc0 : cond0_0 i) (hc1 : ¬cond0_1 i) (x0 : Vec F S1x1024x1024 .f32) (x1 : Vec F S1x1024x512 .f32) (x2 : Vec F S1x1x512 .f32) (x3 : Vec F S1x512x1024 .f32) (x4 : Vec F S1x1x1024 .f32) :
    out0_A_5 c i arg3 harg3 arg4 harg4 arg5 harg5 arg6 harg6 arg7 harg7 arg8 harg8 arg9 harg9 hc0 hc1 x0 x1 x2 x3 x4 = k0_pay3 x1 (k0_pay2 x0) x2 x3 k0_pay1 := by
  unfold out0_A_5
  rw [View.read_writes_eq_canon _ _ _ (cover0_A_5 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x1024x1024) hz3, View.readCov_unit_zero (S := S1x1024x1024) _ hz3,
    View.readCov_unit_zero (S := S1024x1024) _ hz2]
  simp only [View.readAt_eq_ld, harg3.read_unread, harg4.read_unread, harg5.read_unread, harg6.read_unread,
    View.ld_unit_zero (S := S1x1024x1024) hz3, View.ld_unit_zero (S := S1x1024x512) hz3,
    View.ld_unit_zero (S := S1x1x512) hz3, View.ld_unit_zero (S := S1x512x1024) hz3]

/-- First tile, the scratch buffer: the copied token block. -/
theorem sout_A (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1024x1024 .bf16) (harg9 : arg9.IsWhole) (hc0 : cond0_0 i) (hc1 : ¬cond0_1 i) (x0 : Vec F S1x1024x1024 .f32) (x1 : Vec F S1x1024x512 .f32) (x2 : Vec F S1x1x512 .f32) (x3 : Vec F S1x512x1024 .f32) (x4 : Vec F S1x1x1024 .f32) :
    sout0_A_0 c i arg3 harg3 arg4 harg4 arg5 harg5 arg6 harg6 arg7 harg7 arg8 harg8 arg9 harg9 hc0 hc1 x0 x1 x2 x3 x4 = k0_pay2 x0 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero (S := S1024x1024) hz2]
  simp only [View.readAt_eq_ld, harg3.read_unread, View.ld_unit_zero (S := S1x1024x1024) hz3]

/-- A middle tile, the output block: the accumulation step on what the point before left. -/
theorem out_B (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1024x1024 .bf16) (harg9 : arg9.IsWhole) (hc0 : ¬cond0_0 i) (hc1 : ¬cond0_1 i) (x0 : Vec F S1x1024x1024 .f32) (x1 : Vec F S1x1024x512 .f32) (x2 : Vec F S1x1x512 .f32) (x3 : Vec F S1x512x1024 .f32) (x4 : Vec F S1x1x1024 .f32) (xo5 : Vec F S1x1024x1024 .f32) (xs0 : Vec F S1024x1024 .bf16) :
    out0_B_5 c i arg3 harg3 arg4 harg4 arg5 harg5 arg6 harg6 arg7 harg7 arg8 harg8 arg9 harg9 hc0 hc1 x0 x1 x2 x3 x4 xo5 xs0 = k0_pay3 x1 xs0 x2 x3 xo5 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xo5 xs0)]
  unfold kernelRun0_B
  dsimp only
  sl_unfold_words
  rw [View.canon_unit_zero (S := S1x1024x1024) hz3]
  simp only [View.readAt_eq_ld, harg4.read_unread, harg5.read_unread, harg6.read_unread, harg8.read_unread,
    harg9.read_unread, View.ld_unit_zero (S := S1x1024x1024) hz3, View.ld_unit_zero (S := S1x1024x512) hz3,
    View.ld_unit_zero (S := S1x1x512) hz3, View.ld_unit_zero (S := S1x512x1024) hz3,
    View.ld_unit_zero (S := S1024x1024) hz2]

/-- The last tile, the output block: the accumulation step, then the final step. -/
theorem out_C (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1024x1024 .bf16) (harg9 : arg9.IsWhole) (hc0 : ¬cond0_0 i) (hc1 : cond0_1 i) (x0 : Vec F S1x1024x1024 .f32) (x1 : Vec F S1x1024x512 .f32) (x2 : Vec F S1x1x512 .f32) (x3 : Vec F S1x512x1024 .f32) (x4 : Vec F S1x1x1024 .f32) (xo5 : Vec F S1x1024x1024 .f32) (xs0 : Vec F S1024x1024 .bf16) :
    out0_C_5 c i arg3 harg3 arg4 harg4 arg5 harg5 arg6 harg6 arg7 harg7 arg8 harg8 arg9 harg9 hc0 hc1 x0 x1 x2 x3 x4 xo5 xs0 = k0_pay4 (k0_pay3 x1 xs0 x2 x3 xo5) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_cons_unit_zero (S := S1x1024x1024) hz3, View.readCov_unit_zero (S := S1x1024x1024) _ hz3]
  simp only [View.readAt_eq_ld, harg4.read_unread, harg5.read_unread, harg6.read_unread, harg7.read_unread,
    harg8.read_unread, harg9.read_unread, View.ld_unit_zero (S := S1x1024x1024) hz3,
    View.ld_unit_zero (S := S1x1024x512) hz3, View.ld_unit_zero (S := S1x1x512) hz3,
    View.ld_unit_zero (S := S1x512x1024) hz3, View.ld_unit_zero (S := S1x1x1024) hz3,
    View.ld_unit_zero (S := S1024x1024) hz2]

end Cert.KernelIdeal.Cases

end
-- ==== Proof.LibTileSum.lean ====
/-
  A finite sum cut into tiles of equal length: a sum over `K * n` consecutive terms is the sum, over the `n` tiles,
  of each tile's `K` terms; for a sum indexed by `Fin N` with `N = K * n`, term `d` of tile `s` is the term at
  position `K * s + d`.
-/
import Mathlib.Algebra.BigOperators.Fin

namespace Cert.TileSum

open Finset

/-- A sum over the first `K * n` naturals is the sum over `n` tiles of `K` consecutive terms each. -/
theorem sum_range_tiles {M : Type*} [AddCommMonoid M] (g : ℕ → M) (K : ℕ) : ∀ n : ℕ,
    ∑ k ∈ range (K * n), g k = ∑ s ∈ range n, ∑ d ∈ range K, g (K * s + d)
  | 0 => by simp
  | n + 1 => by rw [Nat.mul_succ, sum_range_add, sum_range_tiles g K n, sum_range_succ]

/-- A sum over `Fin N`, `N = K * n`, is the sum over `n` tiles of the `K` terms at positions `K * s + d` (each
    position is below `N`; the other branch is never taken). -/
theorem sum_fin_tiles {M : Type*} [AddCommMonoid M] (K n N : ℕ) (hN : N = K * n) (f : Fin N → M) :
    ∑ i : Fin N, f i
      = ∑ s ∈ range n, ∑ d : Fin K, (if h : K * s + d.val < N then f ⟨K * s + d.val, h⟩ else 0) := by
  have e : ∑ i : Fin N, f i = ∑ k ∈ range N, (if h : k < N then f ⟨k, h⟩ else 0) := by
    rw [sum_range]
    exact Fintype.sum_congr _ _ fun i => by rw [dif_pos i.isLt]
  rw [e]
  subst hN
  rw [sum_range_tiles]
  refine sum_congr rfl fun s _ => ?_
  rw [sum_range]

end Cert.TileSum
-- ==== Proof.Ffn.lean ====
/-
  The expert feed-forward block as ONE function of its five arrays, on the extended reals.

  For expert `e`, token `r` and output feature `c`:
    hidden unit `k`  :  hid e r k = max (∑ d, x (e, r, d) · w1 (e, d, k) + b1 (e, 0, k)) 0
    the result        :  ffn (e, r, c) = ∑ k, hid e r k · w2 (e, k, c) + b2 (e, 0, c)
  with `d` over the 1024 model features and `k` over the 4096 hidden units.

  The 4096 hidden units are also cut into 8 tiles of 512 consecutive units. `tile s` is the part of the sum over
  `k` that tile `s` contributes and `upTo n` the contribution of the first `n` tiles; `upTo 8` is the whole sum
  over `k` (a finite sum in a commutative monoid regroups freely: no finiteness of any entry is needed), so the
  result is `upTo 8 + b2`.

  The kernel walks a grid of 128 points, in row-major order of (expert, token tile, hidden tile) with extents
  (8, 2, 8): point `n` works on expert `n / 16`, on the tokens `1024 · ((n / 8) % 2) + p` and on the hidden units
  `512 · (n % 8) + j` (`eOf`, `rowOf`, `unitOf`).
-/
import Idealize.ShloMosaic.PureOps.Ideal.Laws
import Idealize.ShloMosaic.Lib.ValueIdx
import proofs.«110776_j13855564497414_2_alg».proof.Proof.LibTileSum

noncomputable section

namespace Cert.Ffn

open Idealize.ShloMosaic Idealize.ShloMosaic.ValueIdx Finset

/-- The shapes of the five arrays: tokens, first weights, first bias, second weights, second bias. -/
abbrev SX : Shape := ⟨3, ![8, 2048, 1024]⟩
abbrev SW1 : Shape := ⟨3, ![8, 1024, 4096]⟩
abbrev SB1 : Shape := ⟨3, ![8, 1, 4096]⟩
abbrev SW2 : Shape := ⟨3, ![8, 4096, 1024]⟩
abbrev SB2 : Shape := ⟨3, ![8, 1, 1024]⟩

variable (x : SX.Idx → EReal) (w1 : SW1.Idx → EReal) (b1 : SB1.Idx → EReal) (w2 : SW2.Idx → EReal)
  (b2 : SB2.Idx → EReal)

/-- Hidden unit `k` of expert `e` at token `r`: the first product plus its bias, cut off below at zero. -/
def hid (e : Fin 8) (r : Fin 2048) (k : Fin 4096) : EReal :=
  max ((∑ d : Fin 1024, x (ix3 e r d) * w1 (ix3 e d k)) + b1 (ix3 e (0 : Fin 1) k)) 0

/-- What hidden unit `k` contributes to output feature `c`. -/
def term (e : Fin 8) (r : Fin 2048) (c : Fin 1024) (k : Fin 4096) : EReal :=
  hid x w1 b1 e r k * w2 (ix3 e k c)

/-- The block's result at expert `e`, token `r`, feature `c`. -/
def ffnAt (e : Fin 8) (r : Fin 2048) (c : Fin 1024) : EReal :=
  (∑ k : Fin 4096, term x w1 b1 w2 e r c k) + b2 (ix3 e (0 : Fin 1) c)

/-- The block's result as an array. -/
def ffn : SX.Idx → EReal := fun i => ffnAt x w1 b1 w2 b2 (i 0) (i 1) (i 2)

/-- What the 512 hidden units of tile `s` contribute (unit `j` of tile `s` is unit `512 s + j`). -/
def tile (e : Fin 8) (r : Fin 2048) (c : Fin 1024) (s : ℕ) : EReal :=
  ∑ j : Fin 512, (if h : 512 * s + j.val < 4096 then term x w1 b1 w2 e r c ⟨512 * s + j.val, h⟩ else 0)

/-- What the first `n` tiles contribute. -/
def upTo (e : Fin 8) (r : Fin 2048) (c : Fin 1024) (n : ℕ) : EReal :=
  ∑ s ∈ range n, tile x w1 b1 w2 e r c s

theorem upTo_zero (e : Fin 8) (r : Fin 2048) (c : Fin 1024) : upTo x w1 b1 w2 e r c 0 = 0 :=
  sum_range_zero _

theorem upTo_succ (e : Fin 8) (r : Fin 2048) (c : Fin 1024) (n : ℕ) :
    upTo x w1 b1 w2 e r c (n + 1) = upTo x w1 b1 w2 e r c n + tile x w1 b1 w2 e r c n :=
  sum_range_succ _ _

/-- The eight tiles together are all 4096 hidden units. -/
theorem upTo_eight (e : Fin 8) (r : Fin 2048) (c : Fin 1024) :
    upTo x w1 b1 w2 e r c 8 = ∑ k : Fin 4096, term x w1 b1 w2 e r c k :=
  (Cert.TileSum.sum_fin_tiles 512 8 4096 rfl _).symm

/-- The result is the eight tiles' contribution plus the second bias. -/
theorem ffnAt_eq (e : Fin 8) (r : Fin 2048) (c : Fin 1024) :
    ffnAt x w1 b1 w2 b2 e r c = upTo x w1 b1 w2 e r c 8 + b2 (ix3 e (0 : Fin 1) c) := by
  rw [upTo_eight]; rfl

/-- Unit `j` of tile `s`, for `s` below 8, is a hidden unit. -/
theorem tile_eq (e : Fin 8) (r : Fin 2048) (c : Fin 1024) (s : ℕ) (hs : s < 8) :
    tile x w1 b1 w2 e r c s
      = ∑ j : Fin 512, term x w1 b1 w2 e r c ⟨512 * s + j.val, by have := j.isLt; omega⟩ := by
  unfold tile
  refine Fintype.sum_congr _ _ fun j => ?_
  rw [dif_pos (by have := j.isLt; omega)]

/-! ## The grid point's expert, tokens and hidden units -/

/-- The expert of grid point `n`. -/
def eOf (n : ℕ) (hn : n < 128) : Fin 8 := ⟨n / 16, by omega⟩
/-- The token that row `p` of grid point `n`'s token block holds. -/
def rowOf (n : ℕ) (p : Fin 1024) : Fin 2048 := ⟨1024 * ((n / 8) % 2) + p.val, by have := p.isLt; omega⟩
/-- The hidden unit that position `j` of grid point `n`'s hidden tile holds. -/
def unitOf (n : ℕ) (j : Fin 512) : Fin 4096 := ⟨512 * (n % 8) + j.val, by have := j.isLt; omega⟩

/-- Two consecutive points of one hidden-tile sweep work on the same expert … -/
theorem eOf_succ (n : ℕ) (hn : n + 1 < 128) (h0 : ¬(n + 1) % 8 = 0) :
    eOf (n + 1) hn = eOf n (by omega) := by
  unfold eOf; exact Fin.ext (by show (n + 1) / 16 = n / 16; omega)
/-- … and on the same tokens. -/
theorem rowOf_succ (n : ℕ) (p : Fin 1024) (h0 : ¬(n + 1) % 8 = 0) : rowOf (n + 1) p = rowOf n p := by
  unfold rowOf; exact Fin.ext (by show 1024 * (((n + 1) / 8) % 2) + p.val = 1024 * ((n / 8) % 2) + p.val; omega)

end Cert.Ffn

end
-- ==== Proof.Blocks.lean ====
/-
  Where each window's block sits in its array, at a grid point.

  The grid has 128 points in row-major order of (expert, token tile, hidden tile) with extents (8, 2, 8): point `n` is
  expert `n / 16`, token tile `(n / 8) % 2`, hidden tile `n % 8`. At point `n`
    the token block       is rows `1024 · ((n / 8) % 2) + p` of expert `n / 16`'s tokens;
    the first weights     are columns `512 · (n % 8) + j` of that expert's first weight matrix;
    the first bias        is entries `512 · (n % 8) + j` of that expert's first bias;
    the second weights    are rows `512 · (n % 8) + j` of that expert's second weight matrix;
    the second bias       is that expert's second bias, whole;
    the output block      is rows `1024 · ((n / 8) % 2) + p` of that expert's result.
  A block's entry is read from its array at (block index × block extent + the entry's coordinate) on every axis.
-/
import proofs.«110776_j13855564497414_2_alg».proof.Proof.Gen.KernelIdeal.Frame
import Idealize.ShloMosaic.Lib.Pipeline.Value
import Idealize.ShloMosaic.Lib.ValueIdx
import proofs.«110776_j13855564497414_2_alg».proof.Proof.Ffn

noncomputable section

namespace Cert.KernelIdeal.Blocks

open Cert.KernelIdeal Cert.KernelIdeal.Gen Idealize.ShloMosaic Idealize.ShloMosaic.TcCoe Idealize.SL.Sem
open Idealize.ShloMosaic.ValueIdx
open Cert.Ffn (eOf rowOf unitOf)

variable {F : FTy → Type} [FloatOps F]
variable (m : (ℓ : Loc nD τ sig) → Buf (Elt F) ℓ)

theorem lt128 (t : Fin cfg0.N) : t.val < 128 := lt_of_lt_of_eq t.isLt (show cfg0.N = 128 from N_0)

/-- The block indices of the six windows at every grid point, decided over the grid. -/
theorem idx_facts : ∀ t : Fin cfg0.N,
    (win0_0.index t (0 : Fin 3) = t.val / 16 ∧ win0_0.index t (1 : Fin 3) = (t.val / 8) % 2 ∧ win0_0.index t (2 : Fin 3) = 0)
    ∧ (win0_1.index t (0 : Fin 3) = t.val / 16 ∧ win0_1.index t (1 : Fin 3) = 0 ∧ win0_1.index t (2 : Fin 3) = t.val % 8)
    ∧ (win0_2.index t (0 : Fin 3) = t.val / 16 ∧ win0_2.index t (1 : Fin 3) = 0 ∧ win0_2.index t (2 : Fin 3) = t.val % 8)
    ∧ (win0_3.index t (0 : Fin 3) = t.val / 16 ∧ win0_3.index t (1 : Fin 3) = t.val % 8 ∧ win0_3.index t (2 : Fin 3) = 0)
    ∧ (win0_4.index t (0 : Fin 3) = t.val / 16 ∧ win0_4.index t (1 : Fin 3) = 0 ∧ win0_4.index t (2 : Fin 3) = 0)
    ∧ (win0_5.index t (0 : Fin 3) = t.val / 16 ∧ win0_5.index t (1 : Fin 3) = (t.val / 8) % 2 ∧ win0_5.index t (2 : Fin 3) = 0) :=
  (by decide +kernel : ∀ t : Fin grid0.N, _)

/-- The token block's entry `(p, d)` is the tokens' entry `(expert, token, d)`. -/
theorem tokens_apply (c : Dev nD) (t : Fin cfg0.N) (u : Fin 1) (p d : Fin 1024) :
    (iblk m c 0 t : Vec F S1x1024x1024 .f32) (ix3 u p d)
      = (V m c main_arg0 : S8x2048x1024.Idx → Elt F .f32) (ix3 (eOf t.val (lt128 t)) (rowOf t.val p) d) := by
  obtain ⟨⟨e0, e1, e2⟩, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * u.val = t.val / 16; omega
  | ⟨1, _⟩ => show win0_0.index t (1 : Fin 3) * 1024 + 1 * p.val = 1024 * ((t.val / 8) % 2) + p.val; omega
  | ⟨2, _⟩ => show win0_0.index t (2 : Fin 3) * 1024 + 1 * d.val = d.val; omega

/-- The first weights' block entry `(d, j)` is the first weights' entry `(expert, d, hidden unit)`. -/
theorem w1_apply (c : Dev nD) (t : Fin cfg0.N) (u : Fin 1) (d : Fin 1024) (j : Fin 512) :
    (iblk m c 1 t : Vec F S1x1024x512 .f32) (ix3 u d j)
      = (V m c main_arg1 : S8x1024x4096.Idx → Elt F .f32) (ix3 (eOf t.val (lt128 t)) d (unitOf t.val j)) := by
  obtain ⟨-, ⟨e0, e1, e2⟩, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * u.val = t.val / 16; omega
  | ⟨1, _⟩ => show win0_1.index t (1 : Fin 3) * 1024 + 1 * d.val = d.val; omega
  | ⟨2, _⟩ => show win0_1.index t (2 : Fin 3) * 512 + 1 * j.val = 512 * (t.val % 8) + j.val; omega

/-- The first bias's block entry `j` is the first bias's entry `(expert, 0, hidden unit)`. -/
theorem b1_apply (c : Dev nD) (t : Fin cfg0.N) (u v : Fin 1) (j : Fin 512) :
    (iblk m c 2 t : Vec F S1x1x512 .f32) (ix3 u v j)
      = (V m c main_arg2 : S8x1x4096.Idx → Elt F .f32) (ix3 (eOf t.val (lt128 t)) (0 : Fin 1) (unitOf t.val j)) := by
  obtain ⟨-, -, ⟨e0, e1, e2⟩, -⟩ := idx_facts t
  unfold iblk
  rw [View.read_apply]
  show V m c main_arg2 _ = V m c main_arg2 _
  congr 1
  funext a
  apply Fin.ext
  match a with
  | ⟨0, _⟩ => show win0_2.index t (0 : Fin 3) * 1 + 1 * u.val = t.val / 16; omega
  | ⟨1, _⟩ => show win0_2.index t (1 : Fin 3) * 1 + 1 * v.val = 0; omega
  | ⟨2, _⟩ => show win0_2.index t (2 : Fin 3) * 512 + 1 * j.val = 512 * (t.val % 8) + j.val; omega

/-- The second weights' block entry `(j, q)` is the second weights' entry `(expert, hidden unit, q)`. -/
theorem w2_apply (c : Dev nD) (t : Fin cfg0.N) (u : Fin 1) (j : Fin 512) (q : Fin 1024) :
    (iblk m c 3 t : Vec F S1x512x1024 .f32) (ix3 u j q)
      = (V m c main_arg3 : S8x4096x1024.Idx → Elt F .f32) (ix3 (eOf t.val (lt128 t)) (unitOf t.val j) q) := by
  obtain ⟨-, -, -, ⟨e0, e1, e2⟩, -⟩ := idx_facts t
  unfold iblk
  rw [View.read_apply]
  show V m c main_arg3 _ = V m c main_arg3 _
  congr 1
  funext a
  apply Fin.ext
  match a with
  | ⟨0, _⟩ => show win0_3.index t (0 : Fin 3) * 1 + 1 * u.val = t.val / 16; omega
  | ⟨1, _⟩ => show win0_3.index t (1 : Fin 3) * 512 + 1 * j.val = 512 * (t.val % 8) + j.val; omega
  | ⟨2, _⟩ => show win0_3.index t (2 : Fin 3) * 1024 + 1 * q.val = q.val; omega

/-- The second bias's block entry `q` is the second bias's entry `(expert, 0, q)`. -/
theorem b2_apply (c : Dev nD) (t : Fin cfg0.N) (u v : Fin 1) (q : Fin 1024) :
    (iblk m c 4 t : Vec F S1x1x1024 .f32) (ix3 u v q)
      = (V m c main_arg4 : S8x1x1024.Idx → Elt F .f32) (ix3 (eOf t.val (lt128 t)) (0 : Fin 1) q) := by
  obtain ⟨-, -, -, -, ⟨e0, e1, e2⟩, -⟩ := idx_facts t
  unfold iblk
  rw [View.read_apply]
  show V m c main_arg4 _ = V m c main_arg4 _
  congr 1
  funext a
  apply Fin.ext
  match a with
  | ⟨0, _⟩ => show win0_4.index t (0 : Fin 3) * 1 + 1 * u.val = t.val / 16; omega
  | ⟨1, _⟩ => show win0_4.index t (1 : Fin 3) * 1 + 1 * v.val = 0; omega
  | ⟨2, _⟩ => show win0_4.index t (2 : Fin 3) * 1024 + 1 * q.val = q.val; omega

/-- Entry `(p, q)` of the output block sits at `(expert, token, q)` of the result array. -/
theorem out_emb (t : Fin cfg0.N) (u : Fin 1) (p q : Fin 1024) :
    ((cfg0.win 5).blk t).view.emb (ix3 u p q) = (ix3 (eOf t.val (lt128 t)) (rowOf t.val p) q : S8x2048x1024.Idx) := by
  obtain ⟨-, -, -, -, -, ⟨e0, e1, e2⟩⟩ := idx_facts t
  funext a
  apply Fin.ext
  match a with
  | ⟨0, _⟩ => show win0_5.index t (0 : Fin 3) * 1 + 1 * u.val = t.val / 16; omega
  | ⟨1, _⟩ => show win0_5.index t (1 : Fin 3) * 1024 + 1 * p.val = 1024 * ((t.val / 8) % 2) + p.val; omega
  | ⟨2, _⟩ => show win0_5.index t (2 : Fin 3) * 1024 + 1 * q.val = q.val; omega

end Cert.KernelIdeal.Blocks

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.LibRowBroadcast.lean ====
/-
  A `1 × b` row spread over the rows of an `a × b` matrix read at an entry: entry `(p, q)` of the spread matrix is
  entry `(0, q)` of the row.
-/
import Idealize.ShloMosaic.Lib.Pipeline.Value
import Idealize.ShloMosaic.Lib.ValueIdx

noncomputable section

namespace Cert.RowBroadcast

open Idealize.ShloMosaic Idealize.ShloMosaic.ValueIdx

/-- A `[1, b]` row broadcast to `[a, b]` reads, at `(p, q)`, the row at `q`: the unit axis is read at 0, the other
    axis at its own coordinate. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.RowBroadcast

end
-- ==== Proof.Payload.lean ====
/-
  The four values the kernel body stores, read at an entry, at the exact (extended-real) values.

  The body works on blocks: a `1024 × 1024` block of tokens `xs` (kept in a scratch buffer in the matrix unit's input
  format, which at the exact values is the same numbers), a `1024 × 512` block of first weights, a `1 × 512` block of
  first bias, a `512 × 1024` block of second weights, a `1 × 1024` block of second bias and the `1024 × 1024` output
  block `acc`. At entry `(p, q)`:
    the reset value          is  0;
    the scratch block        is  the token block, entry by entry;
    the accumulation step    is  acc (p, q) + ∑ j, max (∑ d, xs (p, d) · w1 (d, j) + b1 (0, j)) 0 · w2 (j, q)
                                 with `d` over 1024 features and `j` over the 512 hidden units of the tile;
    the final step           is  acc (p, q) + b2 (0, q).
  Format changes are the identity at the exact values, a matrix product into a zero accumulator is the plain sum of
  products, a leading unit axis added or dropped does not move an entry, and a row spread over the rows of a matrix
  reads the row.
-/
import proofs.«110776_j13855564497414_2_alg».proof.Proof.Gen.KernelIdeal.Skeleton
import Idealize.ShloMosaic.Lib.ValueLayout
import proofs.«110776_j13855564497414_2_alg».proof.Proof.LibMatmul
import proofs.«110776_j13855564497414_2_alg».proof.Proof.LibRowBroadcast

noncomputable section

namespace Cert.KernelIdeal.Payload

open Cert.KernelIdeal Cert.KernelIdeal.Gen Idealize.ShloMosaic Idealize.ShloMosaic.ValueIdx

/-! ## Where the two matrix products take their operands' entries from -/

theorem d1_l0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
theorem d1_l1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem d1_r0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem d1_r1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

theorem d2_l0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem d2_l1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem d2_r0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem d2_r1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-! ## The stored values at an entry -/

/-- The reset stores zero everywhere. -/
theorem pay1_apply (u : Fin 1) (p q : Fin 1024) : k0_pay1 (F := Ideal) (ix3 u p q) = 0 := by
  unfold k0_pay1
  rw [shapeCast_ab_1ab_apply, broadcast_apply]
  exact Ideal.ofBits_zero_f32

/-- The scratch block is the token block entry by entry. -/
theorem pay2_apply (v32 : Vec Ideal S1x1024x1024 .f32) (p d : Fin 1024) :
    k0_pay2 (F := Ideal) v32 (ix2 p d) = v32 (ix3 (0 : Fin 1) p d) := by
  unfold k0_pay2
  rw [shapeCast_self, truncf_apply, shapeCast_1ab_ab_apply]

/-- The accumulation step: the block's entry plus the tile's contribution. -/
theorem pay3_apply (v3 : Vec Ideal S1x1024x512 .f32) (v6 : Vec Ideal S1024x1024 .bf16) (v8 : Vec Ideal S1x1x512 .f32)
    (v15 : Vec Ideal S1x512x1024 .f32) (v19 : Vec Ideal S1x1024x1024 .f32) (u : Fin 1) (p q : Fin 1024) :
    k0_pay3 (F := Ideal) v3 v6 v8 v15 v19 (ix3 u p q)
      = v19 (ix3 (0 : Fin 1) p q)
        + ∑ j : Fin 512, max ((∑ d : Fin 1024, v6 (ix2 p d) * v3 (ix3 (0 : Fin 1) d j))
            + v8 (ix3 (0 : Fin 1) (0 : Fin 1) j)) 0 * v15 (ix3 (0 : Fin 1) j q) := by
  unfold k0_pay3
  rw [shapeCast_ab_1ab_apply, addf_apply, shapeCast_1ab_ab_apply,
    Cert.PlainDot.matmul_zero_apply dot_S1024x512_S512x1024_S1024x1024_1_0_0_1_n_n none rfl rfl d2_l0 d2_l1 d2_r0 d2_r1]
  congr 1
  refine Finset.sum_congr rfl fun j _ => ?_
  rw [truncf_apply, truncf_apply, shapeCast_1ab_ab_apply, maximumf_apply, addf_apply, broadcast_apply,
    Cert.PlainDot.matmul_zero_apply dot_S1024x1024_S1024x512_S1024x512_1_0_0_1_n_n none rfl rfl d1_l0 d1_l1 d1_r0 d1_r1,
    Cert.RowBroadcast.broadcastTo_1b_ab_apply, shapeCast_1ab_ab_apply]
  have e0 : (Scalar.ofBits .f32 0x00000000#32 : Ideal .f32) = 0 := Ideal.ofBits_zero_f32
  rw [e0]
  congr 3
  refine Finset.sum_congr rfl fun d _ => ?_
  rw [truncf_apply, shapeCast_1ab_ab_apply]

/-- The final step adds the second bias's row. -/
theorem pay4_apply (v28 : Vec Ideal S1x1024x1024 .f32) (v30 : Vec Ideal S1x1x1024 .f32) (u : Fin 1) (p q : Fin 1024) :
    k0_pay4 (F := Ideal) v28 v30 (ix3 u p q) = v28 (ix3 (0 : Fin 1) p q) + v30 (ix3 (0 : Fin 1) (0 : Fin 1) q) := by
  unfold k0_pay4
  rw [shapeCast_ab_1ab_apply, addf_apply, shapeCast_1ab_ab_apply, Cert.RowBroadcast.broadcastTo_1b_ab_apply,
    shapeCast_1ab_ab_apply]

end Cert.KernelIdeal.Payload

end
-- ==== Proof.Step.lean ====
/-
  One step of the kernel's accumulation, against the specification.

  Suppose that at a grid point of expert `e`, whose token block starts at token `r - p` and whose hidden tile is
  tile `h`, the buffers hold: the token block's row `p` (token `r`); the first weights, first bias and second weights
  restricted to hidden units `512 h + j`; and an output block whose entry `(p, q)` is the contribution of tiles
  `0 … h - 1` to `(e, r, q)`. Then the accumulation step leaves the contribution of tiles `0 … h`; from the zero block
  (`h = 0`) it leaves tile 0's; and the final step applied to the contribution of all eight tiles leaves the
  block's result. Nothing but the definition of a tile's contribution and `upTo (h + 1) = upTo h + tile h`.

  From these, what the two carried buffers hold after grid point `n` (`GoodAt`): the scratch holds the point's
  token block, and entry `(p, q)` of the output block holds the contribution of hidden tiles `0 … n % 8` to
  (expert, token, q) — after the sweep's last point (`n % 8 = 7`) the block's result itself. It holds after the first
  point of a sweep whatever came before (`good_first`), and passes from a point to the next one of the same sweep
  (`good_next`, `good_last`), which works on the same expert and tokens.
-/
import proofs.«110776_j13855564497414_2_alg».proof.Proof.Payload
import proofs.«110776_j13855564497414_2_alg».proof.Proof.Ffn

noncomputable section

namespace Cert.KernelIdeal.Step

open Cert.KernelIdeal Cert.KernelIdeal.Gen Cert.KernelIdeal.Payload Cert.Ffn
open Idealize.ShloMosaic Idealize.ShloMosaic.ValueIdx

variable (x : SX.Idx → EReal) (w1 : SW1.Idx → EReal) (b1 : SB1.Idx → EReal) (w2 : SW2.Idx → EReal)
  (b2 : SB2.Idx → EReal)

/-- The tile's contribution as the step computes it: the sum over the tile's 512 hidden units. -/
theorem tile_of_blocks (e : Fin 8) (r : Fin 2048) (q : Fin 1024) (h : ℕ) (hh : h < 8)
    (w1b : Vec Ideal S1x1024x512 .f32) (xs : Vec Ideal S1024x1024 .bf16) (b1b : Vec Ideal S1x1x512 .f32)
    (w2b : Vec Ideal S1x512x1024 .f32) (p : Fin 1024)
    (hxs : ∀ d : Fin 1024, xs (ix2 p d) = x (ix3 e r d))
    (hw1 : ∀ (d : Fin 1024) (j : Fin 512),
      w1b (ix3 (0 : Fin 1) d j) = w1 (ix3 e d ⟨512 * h + j.val, by have := j.isLt; omega⟩))
    (hb1 : ∀ j : Fin 512,
      b1b (ix3 (0 : Fin 1) (0 : Fin 1) j) = b1 (ix3 e (0 : Fin 1) ⟨512 * h + j.val, by have := j.isLt; omega⟩))
    (hw2 : ∀ j : Fin 512,
      w2b (ix3 (0 : Fin 1) j q) = w2 (ix3 e ⟨512 * h + j.val, by have := j.isLt; omega⟩ q)) :
    (∑ j : Fin 512, max ((∑ d : Fin 1024, xs (ix2 p d) * w1b (ix3 (0 : Fin 1) d j))
        + b1b (ix3 (0 : Fin 1) (0 : Fin 1) j)) 0 * w2b (ix3 (0 : Fin 1) j q))
      = tile x w1 b1 w2 e r q h := by
  rw [tile_eq x w1 b1 w2 e r q h hh]
  refine Finset.sum_congr rfl fun j _ => ?_
  unfold term hid
  rw [hw2 j, hb1 j]
  congr 3
  refine Finset.sum_congr rfl fun d _ => ?_
  rw [hxs d, hw1 d j]

/-- The accumulation step on the contribution of tiles `0 … h - 1` leaves that of tiles `0 … h`. -/
theorem acc_step (e : Fin 8) (r : Fin 2048) (q : Fin 1024) (h : ℕ) (hh : h < 8)
    (w1b : Vec Ideal S1x1024x512 .f32) (xs : Vec Ideal S1024x1024 .bf16) (b1b : Vec Ideal S1x1x512 .f32)
    (w2b : Vec Ideal S1x512x1024 .f32) (acc : Vec Ideal S1x1024x1024 .f32) (u : Fin 1) (p : Fin 1024)
    (hxs : ∀ d : Fin 1024, xs (ix2 p d) = x (ix3 e r d))
    (hw1 : ∀ (d : Fin 1024) (j : Fin 512),
      w1b (ix3 (0 : Fin 1) d j) = w1 (ix3 e d ⟨512 * h + j.val, by have := j.isLt; omega⟩))
    (hb1 : ∀ j : Fin 512,
      b1b (ix3 (0 : Fin 1) (0 : Fin 1) j) = b1 (ix3 e (0 : Fin 1) ⟨512 * h + j.val, by have := j.isLt; omega⟩))
    (hw2 : ∀ j : Fin 512,
      w2b (ix3 (0 : Fin 1) j q) = w2 (ix3 e ⟨512 * h + j.val, by have := j.isLt; omega⟩ q))
    (hacc : acc (ix3 (0 : Fin 1) p q) = upTo x w1 b1 w2 e r q h) :
    k0_pay3 (F := Ideal) w1b xs b1b w2b acc (ix3 u p q) = upTo x w1 b1 w2 e r q (h + 1) := by
  rw [pay3_apply, hacc, upTo_succ, tile_of_blocks x w1 b1 w2 e r q h hh w1b xs b1b w2b p hxs hw1 hb1 hw2]

/-- From the reset block the accumulation step leaves tile 0's contribution alone. -/
theorem first_step (e : Fin 8) (r : Fin 2048) (q : Fin 1024)
    (w1b : Vec Ideal S1x1024x512 .f32) (xs : Vec Ideal S1024x1024 .bf16) (b1b : Vec Ideal S1x1x512 .f32)
    (w2b : Vec Ideal S1x512x1024 .f32) (u : Fin 1) (p : Fin 1024)
    (hxs : ∀ d : Fin 1024, xs (ix2 p d) = x (ix3 e r d))
    (hw1 : ∀ (d : Fin 1024) (j : Fin 512),
      w1b (ix3 (0 : Fin 1) d j) = w1 (ix3 e d ⟨512 * 0 + j.val, by have := j.isLt; omega⟩))
    (hb1 : ∀ j : Fin 512,
      b1b (ix3 (0 : Fin 1) (0 : Fin 1) j) = b1 (ix3 e (0 : Fin 1) ⟨512 * 0 + j.val, by have := j.isLt; omega⟩))
    (hw2 : ∀ j : Fin 512,
      w2b (ix3 (0 : Fin 1) j q) = w2 (ix3 e ⟨512 * 0 + j.val, by have := j.isLt; omega⟩ q)) :
    k0_pay3 (F := Ideal) w1b xs b1b w2b (k0_pay1 (F := Ideal)) (ix3 u p q) = upTo x w1 b1 w2 e r q (0 + 1) :=
  acc_step x w1 b1 w2 e r q 0 (by omega) w1b xs b1b w2b (k0_pay1 (F := Ideal)) u p hxs hw1 hb1 hw2
    ((pay1_apply (0 : Fin 1) p q).trans (upTo_zero x w1 b1 w2 e r q).symm)

/-- The final step on the contribution of all eight tiles leaves the block's result. -/
theorem last_step (e : Fin 8) (r : Fin 2048) (q : Fin 1024) (acc : Vec Ideal S1x1024x1024 .f32)
    (b2b : Vec Ideal S1x1x1024 .f32) (u : Fin 1) (p : Fin 1024)
    (hb2 : b2b (ix3 (0 : Fin 1) (0 : Fin 1) q) = b2 (ix3 e (0 : Fin 1) q))
    (hacc : acc (ix3 (0 : Fin 1) p q) = upTo x w1 b1 w2 e r q 8) :
    k0_pay4 (F := Ideal) acc b2b (ix3 u p q) = ffnAt x w1 b1 w2 b2 e r q := by
  rw [pay4_apply, hacc, hb2, ffnAt_eq]

/-! ## What the carried buffers hold after a grid point -/

/-- After grid point `n`: the output block `o` holds the first `n % 8 + 1` tiles' contribution — the result itself
    once all eight are in — and the scratch `s` the point's token block. -/
def GoodAt (n : ℕ) (hn : n < 128) (o : Vec Ideal S1x1024x1024 .f32) (s : Vec Ideal S1024x1024 .bf16) : Prop :=
  (∀ (u : Fin 1) (p q : Fin 1024), o (ix3 u p q)
      = if n % 8 = 7 then ffnAt x w1 b1 w2 b2 (eOf n hn) (rowOf n p) q
        else upTo x w1 b1 w2 (eOf n hn) (rowOf n p) q (n % 8 + 1))
  ∧ ∀ p d : Fin 1024, s (ix2 p d) = x (ix3 (eOf n hn) (rowOf n p) d)

/-- A sweep's first point: reset, copy the token block, accumulate tile 0. -/
theorem good_first (n : ℕ) (hn : n < 128) (h0 : n % 8 = 0)
    (x0b : Vec Ideal S1x1024x1024 .f32) (w1b : Vec Ideal S1x1024x512 .f32) (b1b : Vec Ideal S1x1x512 .f32)
    (w2b : Vec Ideal S1x512x1024 .f32)
    (hx0 : ∀ (u : Fin 1) (p d : Fin 1024), x0b (ix3 u p d) = x (ix3 (eOf n hn) (rowOf n p) d))
    (hw1 : ∀ (u : Fin 1) (d : Fin 1024) (j : Fin 512), w1b (ix3 u d j) = w1 (ix3 (eOf n hn) d (unitOf n j)))
    (hb1 : ∀ (u v : Fin 1) (j : Fin 512), b1b (ix3 u v j) = b1 (ix3 (eOf n hn) (0 : Fin 1) (unitOf n j)))
    (hw2 : ∀ (u : Fin 1) (j : Fin 512) (q : Fin 1024), w2b (ix3 u j q) = w2 (ix3 (eOf n hn) (unitOf n j) q)) :
    GoodAt x w1 b1 w2 b2 n hn
      (k0_pay3 (F := Ideal) w1b (k0_pay2 (F := Ideal) x0b) b1b w2b (k0_pay1 (F := Ideal)))
      (k0_pay2 (F := Ideal) x0b) := by
  have hs : ∀ p d : Fin 1024, k0_pay2 (F := Ideal) x0b (ix2 p d) = x (ix3 (eOf n hn) (rowOf n p) d) :=
    fun p d => (pay2_apply x0b p d).trans (hx0 0 p d)
  refine ⟨fun u p q => ?_, hs⟩
  rw [if_neg (by omega)]
  exact acc_step x w1 b1 w2 (eOf n hn) (rowOf n p) q (n % 8) (Nat.mod_lt _ (by omega)) w1b
    (k0_pay2 (F := Ideal) x0b) b1b w2b (k0_pay1 (F := Ideal)) u p (hs p) (fun d j => hw1 0 d j)
    (fun j => hb1 0 0 j) (fun j => hw2 0 j q) (by rw [pay1_apply, h0, upTo_zero])

/-- A middle point of a sweep: accumulate the point's tile onto what the point before left. -/
theorem good_next (n : ℕ) (hn : n + 1 < 128) (h0 : ¬(n + 1) % 8 = 0) (h1 : ¬(n + 1) % 8 = 7)
    (w1b : Vec Ideal S1x1024x512 .f32) (b1b : Vec Ideal S1x1x512 .f32) (w2b : Vec Ideal S1x512x1024 .f32)
    (o : Vec Ideal S1x1024x1024 .f32) (s : Vec Ideal S1024x1024 .bf16)
    (hw1 : ∀ (u : Fin 1) (d : Fin 1024) (j : Fin 512),
      w1b (ix3 u d j) = w1 (ix3 (eOf (n + 1) hn) d (unitOf (n + 1) j)))
    (hb1 : ∀ (u v : Fin 1) (j : Fin 512),
      b1b (ix3 u v j) = b1 (ix3 (eOf (n + 1) hn) (0 : Fin 1) (unitOf (n + 1) j)))
    (hw2 : ∀ (u : Fin 1) (j : Fin 512) (q : Fin 1024),
      w2b (ix3 u j q) = w2 (ix3 (eOf (n + 1) hn) (unitOf (n + 1) j) q))
    (ih : GoodAt x w1 b1 w2 b2 n (by omega) o s) :
    GoodAt x w1 b1 w2 b2 (n + 1) hn (k0_pay3 (F := Ideal) w1b s b1b w2b o) s := by
  obtain ⟨iho, ihs⟩ := ih
  have hs : ∀ p d : Fin 1024, s (ix2 p d) = x (ix3 (eOf (n + 1) hn) (rowOf (n + 1) p) d) := fun p d => by
    rw [eOf_succ n hn h0, rowOf_succ n p h0]; exact ihs p d
  refine ⟨fun u p q => ?_, hs⟩
  rw [if_neg h1]
  have hacc : o (ix3 (0 : Fin 1) p q)
      = upTo x w1 b1 w2 (eOf (n + 1) hn) (rowOf (n + 1) p) q ((n + 1) % 8) := by
    rw [iho 0 p q, if_neg (by omega), eOf_succ n hn h0, rowOf_succ n p h0]
    congr 1; omega
  exact acc_step x w1 b1 w2 (eOf (n + 1) hn) (rowOf (n + 1) p) q ((n + 1) % 8) (Nat.mod_lt _ (by omega)) w1b s b1b
    w2b o u p (hs p) (fun d j => hw1 0 d j) (fun j => hb1 0 0 j) (fun j => hw2 0 j q) hacc

/-- A sweep's last point: accumulate the eighth tile, then add the second bias. -/
theorem good_last (n : ℕ) (hn : n + 1 < 128) (h0 : ¬(n + 1) % 8 = 0) (h1 : (n + 1) % 8 = 7)
    (w1b : Vec Ideal S1x1024x512 .f32) (b1b : Vec Ideal S1x1x512 .f32) (w2b : Vec Ideal S1x512x1024 .f32)
    (b2b : Vec Ideal S1x1x1024 .f32) (o : Vec Ideal S1x1024x1024 .f32) (s : Vec Ideal S1024x1024 .bf16)
    (hw1 : ∀ (u : Fin 1) (d : Fin 1024) (j : Fin 512),
      w1b (ix3 u d j) = w1 (ix3 (eOf (n + 1) hn) d (unitOf (n + 1) j)))
    (hb1 : ∀ (u v : Fin 1) (j : Fin 512),
      b1b (ix3 u v j) = b1 (ix3 (eOf (n + 1) hn) (0 : Fin 1) (unitOf (n + 1) j)))
    (hw2 : ∀ (u : Fin 1) (j : Fin 512) (q : Fin 1024),
      w2b (ix3 u j q) = w2 (ix3 (eOf (n + 1) hn) (unitOf (n + 1) j) q))
    (hb2 : ∀ (u v : Fin 1) (q : Fin 1024), b2b (ix3 u v q) = b2 (ix3 (eOf (n + 1) hn) (0 : Fin 1) q))
    (ih : GoodAt x w1 b1 w2 b2 n (by omega) o s) :
    GoodAt x w1 b1 w2 b2 (n + 1) hn
      (k0_pay4 (F := Ideal) (k0_pay3 (F := Ideal) w1b s b1b w2b o) b2b) s := by
  obtain ⟨iho, ihs⟩ := ih
  have hs : ∀ p d : Fin 1024, s (ix2 p d) = x (ix3 (eOf (n + 1) hn) (rowOf (n + 1) p) d) := fun p d => by
    rw [eOf_succ n hn h0, rowOf_succ n p h0]; exact ihs p d
  refine ⟨fun u p q => ?_, hs⟩
  rw [if_pos h1]
  have hacc : o (ix3 (0 : Fin 1) p q)
      = upTo x w1 b1 w2 (eOf (n + 1) hn) (rowOf (n + 1) p) q ((n + 1) % 8) := by
    rw [iho 0 p q, if_neg (by omega), eOf_succ n hn h0, rowOf_succ n p h0]
    congr 1; omega
  have hstep := acc_step x w1 b1 w2 (eOf (n + 1) hn) (rowOf (n + 1) p) q ((n + 1) % 8) (Nat.mod_lt _ (by omega))
    w1b s b1b w2b o (0 : Fin 1) p (hs p) (fun d j => hw1 0 d j) (fun j => hb1 0 0 j) (fun j => hw2 0 j q) hacc
  exact last_step x w1 b1 w2 b2 (eOf (n + 1) hn) (rowOf (n + 1) p) q (k0_pay3 (F := Ideal) w1b s b1b w2b o) b2b u p
    (hb2 0 0 q) (by rw [hstep, h1])

end Cert.KernelIdeal.Step

end
-- ==== Proof.Invariant.lean ====
/-
  What the kernel's two carried buffers hold after every grid point, by induction along the grid.

  The run's own account of the buffers after point `n` is a recursion on `n`: at the first point of a hidden-tile
  sweep the first-tile case of the body applied to the point's blocks; at a later point the middle or last case
  applied to the point's blocks and to what the point before left. With each case written as its stored values
  (Cases.lean), each block read from its array (Blocks.lean) and one step checked against the specification
  (Step.lean), the induction is three lines per case: after point `n` the scratch holds the point's token block and
  the output block the contribution of hidden tiles `0 … n % 8`, the finished result after a sweep's last point.
-/
import proofs.«110776_j13855564497414_2_alg».proof.Proof.Cases
import proofs.«110776_j13855564497414_2_alg».proof.Proof.Blocks
import proofs.«110776_j13855564497414_2_alg».proof.Proof.Step

noncomputable section

namespace Cert.KernelIdeal.Invariant

open Cert.KernelIdeal Cert.KernelIdeal.Gen Cert.KernelIdeal.Step Cert.KernelIdeal.Blocks Cert.Ffn
open Idealize.ShloMosaic Idealize.ShloMosaic.TcCoe Idealize.SL.Sem Idealize.ShloMosaic.ValueIdx

variable (m : (ℓ : Loc nD τ sig) → Buf (Elt Ideal) ℓ)

theorem h128 {n : ℕ} (hn : n < cfg0.N) : n < 128 := lt_of_lt_of_eq hn (show cfg0.N = 128 from N_0)

/-- After grid point `n` the carried buffers hold what the specification says of the arrays as the kernel finds them. -/
def Good (c : Dev nD) (n : ℕ) (hn : n < cfg0.N) : Prop :=
  GoodAt (V m c main_arg0) (V m c main_arg1) (V m c main_arg2) (V m c main_arg3) (V m c main_arg4) n (h128 hn) (outsAt0 m c n hn).1 (outsAt0 m c n hn).2

/-- It holds after the first point of every sweep, whatever the buffers held before. -/
theorem good_A (c : Dev nD) (t : Fin cfg0.N) (h0 : t.val % 8 = 0) : Good m c t.val t.isLt := by
  have h1 : ¬t.val % 8 = 7 := by omega
  unfold Good
  rw [outsAt0_A m c t h0 h1]
  dsimp only
  rw [Cases.out_A, Cases.sout_A]
  exact good_first (V m c main_arg0) (V m c main_arg1) (V m c main_arg2) (V m c main_arg3) (V m c main_arg4) t.val (h128 t.isLt) h0 (iblk m c 0 t) (iblk m c 1 t) (iblk m c 2 t) (iblk m c 3 t)
    (tokens_apply m c t) (w1_apply m c t) (b1_apply m c t) (w2_apply m c t)

/-- It holds after every grid point. -/
theorem good (c : Dev nD) : ∀ (n : ℕ) (hn : n < cfg0.N), Good m c n hn
  | 0, hn => good_A m c ⟨0, hn⟩ rfl
  | n + 1, hn => by
    have ih := good c n (Nat.lt_of_succ_lt hn)
    by_cases h0 : (n + 1) % 8 = 0
    · exact good_A m c ⟨n + 1, hn⟩ h0
    · by_cases h1 : (n + 1) % 8 = 7
      · unfold Good
        rw [outsAt0_C m c ⟨n + 1, hn⟩ h0 h1]
        dsimp only
        rw [Cases.out_C]
        exact good_last (V m c main_arg0) (V m c main_arg1) (V m c main_arg2) (V m c main_arg3) (V m c main_arg4) n (h128 hn) h0 h1 (iblk m c 1 ⟨n + 1, hn⟩) (iblk m c 2 ⟨n + 1, hn⟩)
          (iblk m c 3 ⟨n + 1, hn⟩) (iblk m c 4 ⟨n + 1, hn⟩) (outsAt0 m c n (Nat.lt_of_succ_lt hn)).1
          (outsAt0 m c n (Nat.lt_of_succ_lt hn)).2 (w1_apply m c ⟨n + 1, hn⟩) (b1_apply m c ⟨n + 1, hn⟩)
          (w2_apply m c ⟨n + 1, hn⟩) (b2_apply m c ⟨n + 1, hn⟩) ih
      · unfold Good
        rw [outsAt0_B m c ⟨n + 1, hn⟩ h0 h1]
        dsimp only
        rw [Cases.out_B]
        exact good_next (V m c main_arg0) (V m c main_arg1) (V m c main_arg2) (V m c main_arg3) (V m c main_arg4) n (h128 hn) h0 h1 (iblk m c 1 ⟨n + 1, hn⟩) (iblk m c 2 ⟨n + 1, hn⟩)
          (iblk m c 3 ⟨n + 1, hn⟩) (outsAt0 m c n (Nat.lt_of_succ_lt hn)).1
          (outsAt0 m c n (Nat.lt_of_succ_lt hn)).2 (w1_apply m c ⟨n + 1, hn⟩) (b1_apply m c ⟨n + 1, hn⟩)
          (w2_apply m c ⟨n + 1, hn⟩) ih

end Cert.KernelIdeal.Invariant

end
-- ==== Proof.Final.lean ====
/-
  The kernel's result array after the run is the specification of its argument arrays.

  The output block is written back to the result array after the last point of each hidden-tile sweep (the points
  `n` with `n % 8 = 7`), when it holds the finished result for the sweep's expert and token tile. Those sixteen blocks
  (8 experts × 2 token tiles of 1024 tokens, all 1024 features) tile the `8 × 2048 × 1024` result array: entry
  `(e, r, c)` lies in the block written after point `16 e + 8 (r / 1024) + 7`. So every entry of the result array
  ends at the specification's value there.
-/
import proofs.«110776_j13855564497414_2_alg».proof.Proof.Invariant
import proofs.«110776_j13855564497414_2_alg».proof.Proof.Gen.KernelIdeal.Value

noncomputable section

namespace Cert.KernelIdeal.Final

open Cert.KernelIdeal Cert.KernelIdeal.Gen Cert.KernelIdeal.Step Cert.KernelIdeal.Blocks Cert.KernelIdeal.Invariant
open Cert.Ffn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification of the argument arrays as the kernel finds them, as contents of the result array. -/
abbrev result (c : Dev nD) : Buf (Elt Ideal) ((c : Thread nD τ).loc main_v0) :=
  ffn (V m c main_arg0) (V m c main_arg1) (V m c main_arg2) (V m c main_arg3) (V m c main_arg4)

/-- What a sweep's last point writes back is its block of the specification. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  rw [Cert.KernelIdeal.Value.flushed5]
  refine funext fun (j : S1x1024x1024.Idx) => ?_
  obtain ⟨u, p, q, rfl⟩ : ∃ (u : Fin 1) (p q : Fin 1024), j = ix3 u p q := ⟨j 0, j 1, j 2, eq_ix3 j⟩
  show (outsAt0 m c t.val t.isLt).1 (ix3 u p q) = result m c (((cfg0.win 5).blk t).view.emb (ix3 u p q))
  rw [out_emb t u p q, (good m c t.val t.isLt).1 u p q, if_pos h7]
  rfl

/-- An entry of the result array is in point `t`'s block iff each coordinate is in the block's range on its axis. -/
theorem mem_blk (t : Fin cfg0.N) (i : S8x2048x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v0).slice (win0_5.rect t)).set ↔ _
  rw [View.set_slice_whole, Rect.mem_set_unit]
  exact Iff.rfl

/-- Every entry of the result array lies in the block some sweep's last point writes back. -/
theorem cover (i : S8x2048x1024.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 1024 := (i 2).isLt
  have hN : cfg0.N = 128 := N_0
  obtain ⟨t, ht⟩ : ∃ t : Fin cfg0.N, t.val = 16 * (i 0).val + 8 * ((i 1).val / 1024) + 7 :=
    ⟨⟨16 * (i 0).val + 8 * ((i 1).val / 1024) + 7, by omega⟩, rfl⟩
  obtain ⟨-, -, -, -, -, ⟨e0, e1, e2⟩⟩ := idx_facts t
  refine ⟨t, (flush0_5 t).mpr (by omega), ?_⟩
  rw [mem_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1024 ≤ (i 1).val ∧ (i 1).val < win0_5.index t (1 : Fin 3) * 1024 + 1024
    omega
  | ⟨2, _⟩ =>
    show win0_5.index t (2 : Fin 3) * 1024 ≤ (i 2).val ∧ (i 2).val < win0_5.index t (2 : Fin 3) * 1024 + 1024
    omega

/-- The result array after the run is the specification. -/
theorem final (c : Dev nD) : (dats m 0 c).arrAt 5 cfg0.N = result m c :=
  (dats m 0 c).arrAt_eq_of_cover 5 (result m c) (flushed_eq m c) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Final

end
-- ==== Proof.RefIsFfn.lean ====
/-
  The reference program computes the specification.

  Read one operation at a time at entry `(e, r, c)`: the last addition is the second product at `(e, r, c)` plus the
  second bias spread along the token axis, read at `(e, 0, c)`; the second product is the sum over hidden unit `k` of
  the hidden activations at `(e, r, k)` times the second weights at `(e, k, c)`; a hidden activation is the maximum
  of zero (a scalar zero spread over the whole array) and the first product at `(e, r, k)` plus the first bias at
  `(e, 0, k)`; the first product is the sum over feature `d` of the tokens at `(e, r, d)` times the first weights at
  `(e, d, k)`. That is the specification's formula, term for term.
-/
import proofs.«110776_j13855564497414_2_alg».proof.Proof.Gen.ReferenceIdeal.Read
import proofs.«110776_j13855564497414_2_alg».proof.Proof.Ffn

noncomputable section

namespace Cert.ReferenceIdeal.RefValue

open Cert.ReferenceIdeal Cert.ReferenceIdeal.Read Cert.Ffn Idealize.ShloMosaic Idealize.ShloMosaic.ValueIdx

/-- The reference's last stage is the specification of its five arguments. -/
theorem ref_eq (x0 : S8x2048x1024.Idx → EReal) (x1 : S8x1024x4096.Idx → EReal) (x2 : S8x1x4096.Idx → EReal)
    (x3 : S8x4096x1024.Idx → EReal) (x4 : S8x1x1024.Idx → EReal) :
    val_main_v6 (F := Ideal) x0 x1 x2 x3 x4 = ffn x0 x1 x2 x3 x4 := by
  funext i
  obtain ⟨e, r, c, rfl⟩ : ∃ (e : Fin 8) (r : Fin 2048) (c : Fin 1024), i = ix3 e r c := ⟨i 0, i 1, i 2, eq_ix3 i⟩
  have l4 : ∀ k : Fin 4096, lidx_main_v4 (ix3 e r c) k = ix3 e r k := fun k =>
    funext fun a => Fin.ext (by match a with | ⟨0, _⟩ => rfl | ⟨1, _⟩ => rfl | ⟨2, _⟩ => rfl)
  have r4 : ∀ k : Fin 4096, ridx_main_v4 (ix3 e r c) k = ix3 e k c := fun k =>
    funext fun a => Fin.ext (by match a with | ⟨0, _⟩ => rfl | ⟨1, _⟩ => rfl | ⟨2, _⟩ => rfl)
  have i5 : idx_main_v5 (ix3 e r c) = ix3 e (0 : Fin 1) c :=
    funext fun a => Fin.ext (by match a with | ⟨0, _⟩ => rfl | ⟨1, _⟩ => rfl | ⟨2, _⟩ => rfl)
  have l0 : ∀ (k : Fin 4096) (d : Fin 1024), lidx_main_v0 (ix3 e r k) d = ix3 e r d := fun k d =>
    funext fun a => Fin.ext (by match a with | ⟨0, _⟩ => rfl | ⟨1, _⟩ => rfl | ⟨2, _⟩ => rfl)
  have r0 : ∀ (k : Fin 4096) (d : Fin 1024), ridx_main_v0 (ix3 e r k) d = ix3 e d k := fun k d =>
    funext fun a => Fin.ext (by match a with | ⟨0, _⟩ => rfl | ⟨1, _⟩ => rfl | ⟨2, _⟩ => rfl)
  have i1 : ∀ k : Fin 4096, idx_main_v1 (ix3 e r k) = ix3 e (0 : Fin 1) k := fun k =>
    funext fun a => Fin.ext (by match a with | ⟨0, _⟩ => rfl | ⟨1, _⟩ => rfl | ⟨2, _⟩ => rfl)
  rw [val_main_v6_apply, val_main_v4_apply, val_main_v5_apply, i5]
  show (∑ k : Fin 4096, _) + _ = ffnAt x0 x1 x2 x3 x4 e r c
  unfold ffnAt term hid
  congr 1
  refine Finset.sum_congr rfl fun k _ => ?_
  rw [l4 k, r4 k, val_main_v3_apply, val_main_v2_apply, val_main_v0_apply, val_main_v1_apply,
    val_main_call0_v0_apply, val_main_call0_cst_apply, i1 k]
  simp only [l0, r0, Ideal.addf_def, Ideal.maximumf_def, Ideal.ofBits_def, Ideal.ofBits_zero_f32]

end Cert.ReferenceIdeal.RefValue

end
-- ==== Proof.lean ====
/-
  An expert feed-forward block, `y = relu (x · W1 + b1) · W2 + b2` per expert, computed by a tiled kernel against the
  plain formula.

  The kernel walks a grid of (expert, token tile, hidden tile) = (8, 2, 8) points. For a fixed expert and token tile
  it sweeps the eight hidden tiles of 512 units each, keeping the `1024 × 1024` output block resident: the first
  point of the sweep clears the block (and copies the token block to a scratch buffer in the matrix unit's input
  format), every point adds `relu (x · W1[:, tile] + b1[tile]) · W2[tile, :]`, and the last point adds `b2` and the
  block is written back. The reference contracts over all 4096 hidden units at once.

  On the extended reals the format changes are identities and a matrix product into a zero accumulator is the plain
  sum of products, so the kernel's value is `((0 + T₀) + T₁ + … + T₇) + b2` with `Tₛ` the sum over the 512 hidden
  units of tile `s`, and the reference's is the sum over all 4096 hidden units plus `b2`. These are the same finite
  sum in a commutative monoid, cut into eight consecutive pieces; relu acts on each hidden unit separately, so the
  cut does not touch it. No distributivity or cancellation is used and the inputs' finiteness is never needed.

  The modules: Ffn (the formula and its cut into tiles), Payload (the body's stored values at an entry), Cases (what
  each of the body's three control cases leaves in the two carried buffers), Blocks (where each block sits in its
  array), Step (one grid point against the formula), Invariant (the induction along the grid), Final (the
  written-back blocks tile the result array), RefIsFfn (the reference is the formula). The three frames are the
  generated ones; the idealisation rewrote nothing, so that claim is trivial.
-/
import proofs.«110776_j13855564497414_2_alg».proof.Defs
import proofs.«110776_j13855564497414_2_alg».proof.Proof.Gen.Kernel
import proofs.«110776_j13855564497414_2_alg».proof.Proof.Gen.Kernel.Skeleton
import proofs.«110776_j13855564497414_2_alg».proof.Proof.Gen.Kernel.Launch
import proofs.«110776_j13855564497414_2_alg».proof.Proof.Gen.Kernel.Points
import proofs.«110776_j13855564497414_2_alg».proof.Proof.Gen.Kernel.Frame
import proofs.«110776_j13855564497414_2_alg».proof.Proof.Gen.KernelIdeal
import proofs.«110776_j13855564497414_2_alg».proof.Proof.Gen.KernelIdeal.Skeleton
import proofs.«110776_j13855564497414_2_alg».proof.Proof.Gen.KernelIdeal.Launch
import proofs.«110776_j13855564497414_2_alg».proof.Proof.Gen.KernelIdeal.Points
import proofs.«110776_j13855564497414_2_alg».proof.Proof.Gen.KernelIdeal.Frame
import proofs.«110776_j13855564497414_2_alg».proof.Proof.Gen.KernelIdeal.Value
import proofs.«110776_j13855564497414_2_alg».proof.Proof.Gen.ReferenceIdeal
import proofs.«110776_j13855564497414_2_alg».proof.Proof.Gen.ReferenceIdeal.Run
import proofs.«110776_j13855564497414_2_alg».proof.Proof.Gen.ReferenceIdeal.Read
import proofs.«110776_j13855564497414_2_alg».proof.Proof.Gen.Pre_finite_inputs
import proofs.«110776_j13855564497414_2_alg».proof.Proof.Final
import proofs.«110776_j13855564497414_2_alg».proof.Proof.RefIsFfn
import Idealize.ShloMosaic.Adequacy
import Idealize.ShloMosaic.Init

noncomputable section

namespace Cert.Proof

open Idealize.ShloMosaic Idealize.SL.Sem

/-- The kernel runs, faults nowhere and leaves its arguments unchanged, at the word level … -/
theorem frame_k : Cert.frame_Kernel := fun m ρ _ => Cert.Kernel.Gen.frame m ρ

/-- … and at the exact values. -/
theorem frame_ki : Cert.frame_KernelIdeal := fun m ρ _ => Cert.KernelIdeal.Gen.frame m ρ

/-- The reference runs and leaves its arguments unchanged: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From arguments that agree, the kernel's result array ends at the formula of its arguments (Final) and the
    reference's result at the formula of its own (RefIsFfn): one array. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
